-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S4x128x1 : Shape := ⟨3, ![4, 128, 1]⟩
abbrev S128x128 : Shape := ⟨2, ![128, 128]⟩
abbrev S4x128 : Shape := ⟨2, ![4, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S4x128x1 : S_.BroadcastsInDim S4x128x1 (![] : Fin 0 → Fin S4x128x1.rank)
  reducesTo_S4x128x1_S_d0_1_2 : S4x128x1.ReducesTo [0, 1, 2] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S524288x128 .f32) (main_arg1 : FVec F S4x128x1 .f32) (main_arg2 : FVec F S4x128x1 .f32) (main_arg3 : FVec F S128x128 .f32) (main_arg4 : FVec F S4x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S4x128x1 .f32 := Host.absf main_arg1
  let main_cst_0 : FVec F S_ .f32 := constant S_ .f32 0x7F800000#32
  let main_v5 : FVec F S4x128x1 .f32 := broadcastInDim S4x128x1 ![] bcast_S_S4x128x1 main_cst_0
  let main_v6 : IVec S4x128x1 1 := cmpf .olt main_v4 main_v5
  let main_c_1 : IVec S_ 1 := constantI S_ 1 1#1
  let main_v7 : IVec S_ 1 := (fun x v => Host.reduce IntOp.andi x v reducesTo_S4x128x1_S_d0_1_2 h_S_) main_v6 main_c_1
  let main_v8 : IVec S_ 1 := andi main_v3 main_v7
  let main_v9 : FVec F S4x128x1 .f32 := Host.absf main_arg2
  let main_cst_2 : FVec F S_ .f32 := constant S_ .f32 0x7F800000#32
  let main_v10 : FVec F S4x128x1 .f32 := broadcastInDim S4x128x1 ![] bcast_S_S4x128x1 main_cst_2
  let main_v11 : IVec S4x128x1 1 := cmpf .olt main_v9 main_v10
  let main_c_3 : IVec S_ 1 := constantI S_ 1 1#1
  let main_v12 : IVec S_ 1 := (fun x v => Host.reduce IntOp.andi x v reducesTo_S4x128x1_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S524288x128 : Shape := ⟨2, ![524288, 128]⟩
abbrev S4x128x1 : Shape := ⟨3, ![4, 128, 1]⟩
abbrev S128x128 : Shape := ⟨2, ![128, 128]⟩
abbrev S4x128 : Shape := ⟨2, ![4, 128]⟩
abbrev S1x128x128 : Shape := ⟨3, ![1, 128, 128]⟩
abbrev S4x128x128 : Shape := ⟨3, ![4, 128, 128]⟩
abbrev S4x1x128 : Shape := ⟨3, ![4, 1, 128]⟩
abbrev S16384x128 : Shape := ⟨2, ![16384, 128]⟩
abbrev S1x1x128 : Shape := ⟨3, ![1, 1, 128]⟩
abbrev S1x128 : Shape := ⟨2, ![1, 128]⟩
abbrev S4096x128 : Shape := ⟨2, ![4096, 128]⟩

abbrev nBuf : Space → Nat
  | .hbm => 18
  | .vmem => 8
  | .smem => 0
  | _ => 0

abbrev bufTy : (tb : Table) → Fin (tcTables nBuf tb) → BufTy
  | .hbm, ⟨0, _⟩ => ⟨S524288x128, .f32⟩
  | .hbm, ⟨1, _⟩ => ⟨S4x128x1, .f32⟩
  | .hbm, ⟨2, _⟩ => ⟨S4x128x1, .f32⟩
  | .hbm, ⟨3, _⟩ => ⟨S128x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128x1, .f32⟩
  | .hbm, ⟨8, _⟩ => ⟨S1x128x128, .f32⟩
  | .hbm, ⟨9, _⟩ => ⟨S4x128x128, .f32⟩
  | .hbm, ⟨10, _⟩ => ⟨S4x128x128, .f32⟩
  | .hbm, ⟨11, _⟩ => ⟨S4x128x128, .f32⟩
  | .hbm, ⟨12, _⟩ => ⟨S4x1x128, .f32⟩
  | .hbm, ⟨13, _⟩ => ⟨S4x128x128, .f32⟩
  | .hbm, ⟨14, _⟩ => ⟨S4x128x128, .f32⟩
  | .hbm, ⟨15, _⟩ => ⟨S4x128x128, .bf16⟩
  | .hbm, ⟨16, _⟩ => ⟨S4x1x128, .f32⟩
  | .hbm, ⟨17, _⟩ => ⟨S524288x128, .f32⟩
  | .local _ .vmem, ⟨0, _⟩ => ⟨S16384x128, .f32⟩
  | .local _ .vmem, ⟨1, _⟩ => ⟨S16384x128, .f32⟩
  | .local _ .vmem, ⟨2, _⟩ => ⟨S1x128x128, .bf16⟩
  | .local _ .vmem, ⟨3, _⟩ => ⟨S1x128x128, .bf16⟩
  | .local _ .vmem, ⟨4, _⟩ => ⟨S1x1x128, .f32⟩
  | .local _ .vmem, ⟨5, _⟩ => ⟨S1x1x128, .f32⟩
  | .local _ .vmem, ⟨6, _⟩ => ⟨S16384x128, .f32⟩
  | .local _ .vmem, ⟨7, _⟩ => ⟨S16384x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c4096_i32 : BitVec 32 := 4096#32
  let v6 : BitVec 32 := Scalar.muli c0_i32 c4096_i32
  v6
def k0_off1 (c0_i32 : BitVec 32) : Fin 2 → Nat :=
  let c4096_i32 : BitVec 32 := 4096#32
  let v6 : BitVec 32 := Scalar.muli c0_i32 c4096_i32
  let v7 : BitVec 32 := v6
  let v8 : Index := Scalar.indexCast v7
  let c0_5 : Index := 0#32
  ![v8.toNat, 0]
def k0_mult2 : BitVec 32 :=
  let c1_i32 : BitVec 32 := 1#32
  let c4096_i32_7 : BitVec 32 := 4096#32
  let v16 : BitVec 32 := Scalar.muli c1_i32 c4096_i32_7
  v16
def k0_mult3 : BitVec 32 :=
  let c2_i32 : BitVec 32 := 2#32
  let c4096_i32_11 : BitVec 32 := 4096#32
  let v26 : BitVec 32 := Scalar.muli c2_i32 c4096_i32_11
  v26
def k0_mult4 : BitVec 32 :=
  let c3_i32 : BitVec 32 := 3#32
  let c4096_i32_15 : BitVec 32 := 4096#32
  let v36 : BitVec 32 := Scalar.muli c3_i32 c4096_i32_15
  v36
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x128x1_S4x128 : S4x128x1.ShapeCasts S4x128
  bcast_S4x128_S4x128x1_0_1 : S4x128.BroadcastsInDim S4x128x1 (![0, 1] : Fin 2 → Fin S4x128x1.rank)
  bcast_S128x128_S1x128x128_1_2 : S128x128.BroadcastsInDim S1x128x128 (![1, 2] : Fin 2 → Fin S1x128x128.rank)
  bcast_S4x128x1_S4x128x128_0_1_2 : S4x128x1.BroadcastsInDim S4x128x128 (![0, 1, 2] : Fin 3 → Fin S4x128x128.rank)
  bcast_S1x128x128_S4x128x128_0_1_2 : S1x128x128.BroadcastsInDim S4x128x128 (![0, 1, 2] : Fin 3 → Fin S4x128x128.rank)
  bcast_S4x128_S4x1x128_0_2 : S4x128.BroadcastsInDim S4x1x128 (![0, 2] : Fin 2 → Fin S4x1x128.rank)
  bcast_S4x1x128_S4x128x128_0_1_2 : S4x1x128.BroadcastsInDim S4x128x128 (![0, 1, 2] : Fin 3 → Fin S4x128x128.rank)
  bitsLt_bf16_f32 : FTy.bits .bf16 < FTy.bits .f32
  shapeCasts_S4x128_S4x1x128 : S4x128.ShapeCasts S4x1x128
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1x1x128_S1x128 : S1x1x128.ShapeCasts S1x128
  h_S4096x128 : 0 < S4096x128.numel
  broadcasts_S1x128_S4096x128 : S1x128.Broadcasts S4096x128
  dot_S4096x128_S128x128_S4096x128_1_0_0_1_n_n_wf : DotDims.WF S4096x128 S128x128 S4096x128 [1] [0] [0] [1] [] []
  hrank0 : 0 < grid0.rank
  k0_mult1_dvd : 4096 ∣ k0_mult1.toNat
  k0_off1_inb : ∀ (r : Fin 4), ∀ a, (k0_off1 (BitVec.ofNat 32 r.val)) a + S4096x128.size a ≤ S16384x128.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x128x128.size a
  hwx0_1 : ∀ i : grid0.Coords, EltTy.bits .bf16 = 32 ∨ (Rect.block (s := S4x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S524288x128.size a
  hwx0_3 : ∀ i : grid0.Coords, EltTy.bits .f32 = 32 ∨ (Rect.block (s := S524288x128) S16384x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S4x128x1 : Shape := ⟨3, ![4, 128, 1]⟩
abbrev S128x128 : Shape := ⟨2, ![128, 128]⟩
abbrev S4x128 : Shape := ⟨2, ![4, 128]⟩
abbrev S4x131072x128 : Shape := ⟨3, ![4, 131072, 128]⟩
abbrev S4x1x128 : Shape := ⟨3, ![4, 1, 128]⟩

abbrev nBuf : Space → Nat
  | .hbm => 17
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S4x128x1, .f32⟩
  | .hbm, ⟨2, _⟩ => ⟨S4x128x1, .f32⟩
  | .hbm, ⟨3, _⟩ => ⟨S128x128, .f32⟩
  | .hbm, ⟨4, _⟩ => ⟨S4x128, .f32⟩
  | .hbm, ⟨5, _⟩ => ⟨S4x131072x128, .f32⟩
  | .hbm, ⟨6, _⟩ => ⟨S4x1x128, .f32⟩
  | .hbm, ⟨7, _⟩ => ⟨S4x131072x128, .f32⟩
  | .hbm, ⟨8, _⟩ => ⟨S4x131072x128, .f32⟩
  | .hbm, ⟨9, _⟩ => ⟨S4x131072x128, .f32⟩
  | .hbm, ⟨10, _⟩ => ⟨S4x1x128, .f32⟩
  | .hbm, ⟨11, _⟩ => ⟨S4x131072x128, .f32⟩
  | .hbm, ⟨12, _⟩ => ⟨S4x131072x128, .f32⟩
  | .hbm, ⟨13, _⟩ => ⟨S4x1x128, .f32⟩
  | .hbm, ⟨14, _⟩ => ⟨S4x131072x128, .f32⟩
  | .hbm, ⟨15, _⟩ => ⟨S4x131072x128, .f32⟩
  | .hbm, ⟨16, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S524288x128_S4x131072x128 : S524288x128.ShapeCasts S4x131072x128
  transposes_S4x128x1_S4x1x128_0_2_1 : S4x128x1.Transposes [0, 2, 1] S4x1x128
  bcast_S4x1x128_S4x131072x128_0_1_2 : S4x1x128.BroadcastsInDim S4x131072x128 (![0, 1, 2] : Fin 3 → Fin S4x131072x128.rank)
  bcast_S4x128_S4x1x128_0_2 : S4x128.BroadcastsInDim S4x1x128 (![0, 2] : Fin 2 → Fin S4x1x128.rank)
  shapeCasts_S4x131072x128_S524288x128 : S4x131072x128.ShapeCasts S524288x128
  dot_S4x131072x128_S128x128_S4x131072x128_2_0_01_1_n_n_wf : DotDims.WF S4x131072x128 S128x128 S4x131072x128 [2] [0] [0, 1] [1] [] []

variable [Facts₀]

def dot_S4x131072x128_S128x128_S4x131072x128_2_0_01_1_n_n : DotDims S4x131072x128 S128x128 S4x131072x128 where
  lhsContracting := [2]
  rhsContracting := [0]
  lhsNonContracting := [0, 1]
  rhsNonContracting := [1]
  lhsBatch := []
  rhsBatch := []
  wf := dot_S4x131072x128_S128x128_S4x131072x128_2_0_01_1_n_n_wf

class Facts : Prop extends Facts₀ where

variable [Facts]
-- ==== Proof.Payload.lean ====
/-
  One chunk of the kernel's body, read entry by entry over the extended reals.

  The body cuts its block of 16384 rows into four chunks of 4096 rows.  For each chunk it multiplies the chunk's
  rows by the group's `[128, 128]` weight (its block `[1, 128, 128]` with the unit axis dropped) into a zero
  accumulator and adds the group's bias row (its block `[1, 1, 128]` viewed as `[1, 128]` and repeated down the
  rows).  All four stores write this one function of the weight block, the bias block and the chunk's rows:
  entry `(a, q)` is `(∑ k, x a k * W 0 k q) + B 0 0 q`.
-/
import proofs.«156073_j11544872091858_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelChunk

open Cert.KernelIdeal Cert.KernelIdeal.Gen Idealize.ShloMosaic Idealize.ShloMosaic.ValueIdx

variable {F : FTy → Type} [FloatOps F]

/-- The dimension numbers of the body's matrix product: rows of the chunk against columns of the weight. -/
abbrev D : DotDims S4096x128 S128x128 S4096x128 := dot_S4096x128_S128x128_S4096x128_1_0_0_1_n_n

/-- A chunk's value: the chunk's rows times the weight block into a zero accumulator, plus the bias row. -/
def chunk (wblk : Vec F S1x128x128 .bf16) (bblk : Vec F S1x1x128 .f32) (xc : Vec F S4096x128 .f32) : FVec F S4096x128 .f32 :=
  addf (matmul D none (truncf .bf16 xc bitsLt_bf16_f32) (k0_pay2 wblk) (constant S4096x128 .f32 0x00000000#32))
    (broadcastTo S4096x128 (k0_pay3 bblk) broadcasts_S1x128_S4096x128)

/-- Each of the four stored values is the chunk's value of the rows it loaded. -/
theorem pay4_eq (v0 : Vec F S1x128x128 .bf16) (v3 : Vec F S1x1x128 .f32) (v9 : Vec F S4096x128 .f32) :
    k0_pay4 v0 v3 v9 = chunk v0 v3 v9 := rfl
theorem pay5_eq (v0 : Vec F S1x128x128 .bf16) (v3 : Vec F S1x1x128 .f32) (v19 : Vec F S4096x128 .f32) :
    k0_pay5 v0 v3 v19 = chunk v0 v3 v19 := rfl
theorem pay6_eq (v0 : Vec F S1x128x128 .bf16) (v3 : Vec F S1x1x128 .f32) (v29 : Vec F S4096x128 .f32) :
    k0_pay6 v0 v3 v29 = chunk v0 v3 v29 := rfl
theorem pay1_eq (v0 : Vec F S1x128x128 .bf16) (v3 : Vec F S1x1x128 .f32) (v39 : Vec F S4096x128 .f32) :
    k0_pay1 (k0_pay2 v0) (k0_pay3 v3) v39 = chunk v0 v3 v39 := rfl

/-! ## The pieces of the chunk at an index -/

/-- The weight block with its unit axis dropped reads `(k, q)` at `(0, k, q)`. -/
theorem weight_block_at (wblk : Vec Ideal S1x128x128 .bf16) (k q : Fin 128) :
    k0_pay2 (F := Ideal) wblk (ix2 k q) = wblk (ix3 (0 : Fin 1) k q) := by
  unfold k0_pay2
  rw [shapeCast_self]
  exact shapeCast_apply wblk shapeCasts_S1x128x128_S128x128 (ix2 k q) (ix3 (0 : Fin 1) k q) (by
    rewrite [Shape.rowMajor_val_three, Shape.rowMajor_val_two]
    show (0 * 128 + k.val) * 128 + q.val = k.val * 128 + q.val
    omega)

/-- The bias block viewed as one row reads `(0, q)` at `(0, 0, q)`. -/
theorem bias_block_at (bblk : Vec Ideal S1x1x128 .f32) (q : Fin 128) :
    k0_pay3 (F := Ideal) bblk (ix2 (0 : Fin 1) q) = bblk (ix3 (0 : Fin 1) (0 : Fin 1) q) := by
  unfold k0_pay3
  rw [shapeCast_self]
  exact shapeCast_apply bblk shapeCasts_S1x1x128_S1x128 (ix2 (0 : Fin 1) q) (ix3 (0 : Fin 1) (0 : Fin 1) q) (by
    rewrite [Shape.rowMajor_val_three, Shape.rowMajor_val_two]
    show (0 * 1 + 0) * 128 + q.val = 0 * 128 + q.val
    omega)

/-- The bias row repeated down the 4096 rows reads the row's entry `q` at `(a, q)`. -/
theorem bias_rows_at (brow : FVec Ideal S1x128 .f32) (a : Fin 4096) (q : Fin 128) :
    broadcastTo S4096x128 brow broadcasts_S1x128_S4096x128 (ix2 a q) = brow (ix2 (0 : Fin 1) q) :=
  broadcastTo_apply brow broadcasts_S1x128_S4096x128 (ix2 a q) (ix2 (0 : Fin 1) q) (fun ax => match ax with
    | ⟨0, _⟩ => by show 0 = if (1 : Nat) = 1 then 0 else a.val; rw [if_pos rfl]
    | ⟨1, _⟩ => by show q.val = if (128 : Nat) = 1 then 0 else q.val; rw [if_neg (by decide)])

/-! ## The matrix product at an index -/

/-- The left operand of the product is read on the output's row … -/
theorem lhs_row (j : S4096x128.Idx) (c : D.contr.Idx) : (D.lhsIdx j c 0).val = (j 0).val := by
  unfold DotDims.lhsIdx
  rw [dif_neg (show ¬(0 : Fin S4096x128.rank) ∈ D.lhsBatch by decide), dif_pos (show (0 : Fin S4096x128.rank) ∈ D.lhsNonContracting by decide)]
  rfl
/-- … and on the contracted coordinate; -/
theorem lhs_col (j : S4096x128.Idx) (c : D.contr.Idx) : (D.lhsIdx j c 1).val = (c ⟨0, by decide⟩).val :=
  D.lhsIdx_val_of_single rfl j c
/-- the right operand on the contracted coordinate … -/
theorem rhs_row (j : S4096x128.Idx) (c : D.contr.Idx) : (D.rhsIdx j c 0).val = (c ⟨0, by decide⟩).val :=
  D.rhsIdx_val_of_single rfl j c
/-- … and on the output's column. -/
theorem rhs_col (j : S4096x128.Idx) (c : D.contr.Idx) : (D.rhsIdx j c 1).val = (j 1).val := by
  unfold DotDims.rhsIdx
  rw [dif_neg (show ¬(1 : Fin S128x128.rank) ∈ D.rhsBatch by decide), dif_pos (show (1 : Fin S128x128.rank) ∈ D.rhsNonContracting by decide)]
  rfl

/-- The product into a zero accumulator at `(a, q)` is `∑ k, l a k * r k q`. -/
theorem product_at (l : FVec Ideal S4096x128 .bf16) (r : FVec Ideal S128x128 .bf16) (a : Fin 4096) (q : Fin 128) :
    matmul D none l r (constant S4096x128 .f32 0x00000000#32) (ix2 a q) = ∑ k : Fin 128, l (ix2 a k) * r (ix2 k q) := by
  show FloatOps.matmul D none l r (constant S4096x128 .f32 0x00000000#32) (ix2 a q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 a q) ((contrEquiv1 D 128 rfl rfl).symm k) = ix2 a k := funext fun ax => Fin.ext (by
    match ax with
    | ⟨0, _⟩ => exact lhs_row _ _
    | ⟨1, _⟩ => exact (lhs_col _ _).trans hk)
  have er : D.rhsIdx (ix2 a q) ((contrEquiv1 D 128 rfl rfl).symm k) = ix2 k q := funext fun ax => Fin.ext (by
    match ax with
    | ⟨0, _⟩ => exact (rhs_row _ _).trans hk
    | ⟨1, _⟩ => exact rhs_col _ _)
  rw [el, er]

/-! ## The chunk at an index -/

/-- Entry `(a, q)` of a chunk's value: the row of the chunk against column `q` of the weight block, plus entry `q`
    of the bias block. -/
theorem chunk_apply (wblk : Vec Ideal S1x128x128 .bf16) (bblk : Vec Ideal S1x1x128 .f32) (xc : Vec Ideal S4096x128 .f32)
    (a : Fin 4096) (q : Fin 128) :
    chunk (F := Ideal) wblk bblk xc (ix2 a q)
      = (∑ k : Fin 128, xc (ix2 a k) * wblk (ix3 (0 : Fin 1) k q)) + bblk (ix3 (0 : Fin 1) (0 : Fin 1) q) := by
  unfold chunk
  rw [addf_apply, product_at, bias_rows_at, bias_block_at]
  refine congrArg (· + _) (Finset.sum_congr rfl fun k _ => ?_)
  rw [truncf_apply, weight_block_at]

end Cert.KernelChunk

end
-- ==== Proof.HostPrefix.lean ====
/-
  What the kernel's region finds in its second and third operands.

  Before the launch the host builds, for every group `e`, the weight with both scales folded in,
  `(r e k * w k q) * s e q`, as a `[4, 128, 128]` array (rounded to bf16, which over the extended reals changes
  nothing), and views the bias `[4, 128]` as `[4, 1, 128]`.  Here both arrays are named as functions of the
  arguments and read at an index.
-/
import proofs.«156073_j11544872091858_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelHost

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The folded weight as the host computes it: the input scale repeated along the columns, times the weight
    repeated over the groups, times the output scale repeated along the rows, rounded to bf16. -/
def foldedWeight (r s : (⟨S4x128x1, .f32⟩ : BufTy).Contents (Elt F)) (w : (⟨S128x128, .f32⟩ : BufTy).Contents (Elt F)) :
    (⟨S4x128x128, .bf16⟩ : BufTy).Contents (Elt F) :=
  truncf .bf16 (mulf
    (mulf
      (broadcastInDim S4x128x128 ![0, 1, 2] bcast_S4x128x1_S4x128x128_0_1_2
        (broadcastInDim S4x128x1 ![0, 1] bcast_S4x128_S4x128x1_0_1 (shapeCast S4x128 r shapeCasts_S4x128x1_S4x128)))
      (broadcastInDim S4x128x128 ![0, 1, 2] bcast_S1x128x128_S4x128x128_0_1_2
        (broadcastInDim S1x128x128 ![1, 2] bcast_S128x128_S1x128x128_1_2 w)))
    (broadcastInDim S4x128x128 ![0, 1, 2] bcast_S4x1x128_S4x128x128_0_1_2
      (broadcastInDim S4x1x128 ![0, 2] bcast_S4x128_S4x1x128_0_2 (shapeCast S4x128 s shapeCasts_S4x128x1_S4x128))))
    bitsLt_bf16_f32

/-- The bias with a unit middle axis. -/
def biasRows (b : (⟨S4x128, .f32⟩ : BufTy).Contents (Elt F)) : (⟨S4x1x128, .f32⟩ : BufTy).Contents (Elt F) :=
  shapeCast S4x1x128 b shapeCasts_S4x128_S4x1x128

variable (m : (ℓ : Loc nD τ sig) → Buf (Elt F) ℓ)

/-- The region's second operand is the folded weight of the launch arguments. -/
theorem weight_found (c : Dev nD) :
    (V m c main_v10 : S4x128x128.Idx → Elt F .bf16)
      = foldedWeight (m ((c : Thread nD τ).loc main_arg1)) (m ((c : Thread nD τ).loc main_arg2)) (m ((c : Thread nD τ).loc main_arg3)) := by
  dsimp only [V, hostOps0]; after_results; rfl

/-- The region's third operand is the bias of the launch arguments with a unit middle axis. -/
theorem bias_found (c : Dev nD) :
    (V m c main_v11 : S4x1x128.Idx → Elt F .f32) = biasRows (m ((c : Thread nD τ).loc main_arg4)) := by
  dsimp only [V, hostOps0]; after_results; rfl

/-! ## Read at an index, over the extended reals -/

/-- A `[4, 128, 1]` scale viewed as `[4, 128]` reads `(e, k)` at `(e, k, 0)`. -/
theorem scale_flat (r : (⟨S4x128x1, .f32⟩ : BufTy).Contents (Elt Ideal)) (e : Fin 4) (k : Fin 128) :
    shapeCast S4x128 r shapeCasts_S4x128x1_S4x128 (ix2 e k) = r (ix3 e k (0 : Fin 1)) :=
  shapeCast_apply r shapeCasts_S4x128x1_S4x128 (ix2 e k) (ix3 e k (0 : Fin 1)) (by
    rewrite [Shape.rowMajor_val_three, Shape.rowMajor_val_two]
    show (e.val * 128 + k.val) * 1 + 0 = e.val * 128 + k.val
    omega)

/-- The input scale repeated along the columns reads `r e k` at `(e, k, q)`. -/
theorem in_scale_at (r : (⟨S4x128x1, .f32⟩ : BufTy).Contents (Elt Ideal)) (e : Fin 4) (k q : Fin 128) :
    broadcastInDim S4x128x128 ![0, 1, 2] bcast_S4x128x1_S4x128x128_0_1_2
        (broadcastInDim S4x128x1 ![0, 1] bcast_S4x128_S4x128x1_0_1 (shapeCast S4x128 r shapeCasts_S4x128x1_S4x128)) (ix3 e k q)
      = r (ix3 e k (0 : Fin 1)) :=
  (broadcastInDim_apply _ bcast_S4x128x1_S4x128x128_0_1_2 _ (ix3 e k q) (ix3 e k (0 : Fin 1)) (fun a => match a with
    | ⟨0, _⟩ => by show e.val = if (4 : Nat) = 1 then 0 else e.val; rw [if_neg (by decide)]
    | ⟨1, _⟩ => by show k.val = if (128 : Nat) = 1 then 0 else k.val; rw [if_neg (by decide)]
    | ⟨2, _⟩ => by show 0 = if (1 : Nat) = 1 then 0 else q.val; rw [if_pos rfl])).trans
  ((broadcastInDim_apply _ bcast_S4x128_S4x128x1_0_1 _ (ix3 e k (0 : Fin 1)) (ix2 e k) (fun a => match a with
    | ⟨0, _⟩ => by show e.val = if (4 : Nat) = 1 then 0 else e.val; rw [if_neg (by decide)]
    | ⟨1, _⟩ => by show k.val = if (128 : Nat) = 1 then 0 else k.val; rw [if_neg (by decide)])).trans
  (scale_flat r e k))

/-- The weight repeated over the groups reads `w k q` at `(e, k, q)`. -/
theorem weight_at (w : (⟨S128x128, .f32⟩ : BufTy).Contents (Elt Ideal)) (e : Fin 4) (k q : Fin 128) :
    broadcastInDim S4x128x128 ![0, 1, 2] bcast_S1x128x128_S4x128x128_0_1_2
        (broadcastInDim S1x128x128 ![1, 2] bcast_S128x128_S1x128x128_1_2 w) (ix3 e k q)
      = w (ix2 k q) :=
  (broadcastInDim_apply _ bcast_S1x128x128_S4x128x128_0_1_2 _ (ix3 e k q) (ix3 (0 : Fin 1) k q) (fun a => match a with
    | ⟨0, _⟩ => by show 0 = if (1 : Nat) = 1 then 0 else e.val; rw [if_pos rfl]
    | ⟨1, _⟩ => by show k.val = if (128 : Nat) = 1 then 0 else k.val; rw [if_neg (by decide)]
    | ⟨2, _⟩ => by show q.val = if (128 : Nat) = 1 then 0 else q.val; rw [if_neg (by decide)])).trans
  (broadcastInDim_apply _ bcast_S128x128_S1x128x128_1_2 w (ix3 (0 : Fin 1) k q) (ix2 k q) (fun a => match a with
    | ⟨0, _⟩ => by show k.val = if (128 : Nat) = 1 then 0 else k.val; rw [if_neg (by decide)]
    | ⟨1, _⟩ => by show q.val = if (128 : Nat) = 1 then 0 else q.val; rw [if_neg (by decide)]))

/-- The output scale repeated along the rows reads `s e q` at `(e, k, q)`. -/
theorem out_scale_at (s : (⟨S4x128x1, .f32⟩ : BufTy).Contents (Elt Ideal)) (e : Fin 4) (k q : Fin 128) :
    broadcastInDim S4x128x128 ![0, 1, 2] bcast_S4x1x128_S4x128x128_0_1_2
        (broadcastInDim S4x1x128 ![0, 2] bcast_S4x128_S4x1x128_0_2 (shapeCast S4x128 s shapeCasts_S4x128x1_S4x128)) (ix3 e k q)
      = s (ix3 e q (0 : Fin 1)) :=
  (broadcastInDim_apply _ bcast_S4x1x128_S4x128x128_0_1_2 _ (ix3 e k q) (ix3 e (0 : Fin 1) q) (fun a => match a with
    | ⟨0, _⟩ => by show e.val = if (4 : Nat) = 1 then 0 else e.val; rw [if_neg (by decide)]
    | ⟨1, _⟩ => by show 0 = if (1 : Nat) = 1 then 0 else k.val; rw [if_pos rfl]
    | ⟨2, _⟩ => by show q.val = if (128 : Nat) = 1 then 0 else q.val; rw [if_neg (by decide)])).trans
  ((broadcastInDim_apply _ bcast_S4x128_S4x1x128_0_2 _ (ix3 e (0 : Fin 1) q) (ix2 e q) (fun a => match a with
    | ⟨0, _⟩ => by show e.val = if (4 : Nat) = 1 then 0 else e.val; rw [if_neg (by decide)]
    | ⟨1, _⟩ => by show q.val = if (128 : Nat) = 1 then 0 else q.val; rw [if_neg (by decide)])).trans
  (scale_flat s e q))

/-- The folded weight at `(e, k, q)` is `(r e k * w k q) * s e q`. -/
theorem foldedWeight_apply (r s : (⟨S4x128x1, .f32⟩ : BufTy).Contents (Elt Ideal)) (w : (⟨S128x128, .f32⟩ : BufTy).Contents (Elt Ideal))
    (e : Fin 4) (k q : Fin 128) :
    foldedWeight (F := Ideal) r s w (ix3 e k q)
      = (r (ix3 e k (0 : Fin 1)) * w (ix2 k q)) * s (ix3 e q (0 : Fin 1)) := by
  unfold foldedWeight
  rw [truncf_apply, mulf_apply, mulf_apply, in_scale_at, weight_at, out_scale_at]

/-- The bias with a unit middle axis reads `b e q` at `(e, 0, q)`. -/
theorem biasRows_apply (b : (⟨S4x128, .f32⟩ : BufTy).Contents (Elt Ideal)) (e : Fin 4) (q : Fin 128) :
    biasRows (F := Ideal) b (ix3 e (0 : Fin 1) q) = b (ix2 e q) :=
  shapeCast_apply b shapeCasts_S4x128_S4x1x128 (ix3 e (0 : Fin 1) q) (ix2 e q) (by
    rewrite [Shape.rowMajor_val_two, Shape.rowMajor_val_three]
    show e.val * 128 + q.val = (e.val * 1 + 0) * 128 + q.val
    omega)

end Cert.KernelHost

end
-- ==== Proof.Law.lean ====
/-
  The one algebraic law that joins the two programs.

  The kernel multiplies each input entry by a weight that already carries the row scale and the column scale,
  `x k * ((r k * w k) * s)`, and sums over the contracted axis; the reference scales the input first, contracts
  with the bare weight and scales the column afterwards, `(∑ k, (x k * r k) * w k) * s`.  Over the reals the two
  agree because `s` does not depend on `k` and multiplication distributes over a finite sum.  Over the extended
  reals distributivity fails at the infinities, so the law is stated for entries that are (coercions of) reals.
-/
import Mathlib.Data.EReal.Basic
import Mathlib.Data.EReal.Operations
import Mathlib.Algebra.BigOperators.Ring.Finset
import Mathlib.Tactic.Ring

namespace Cert.Law

open Finset

/-- The coercion of the reals into the extended reals commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A column scale factors out of a contraction of real entries: summing `x k * ((r k * w k) * s)` over `k` is
    scaling `∑ k, (x k * r k) * w k` by `s`. -/
theorem scale_out {ι : Type*} [Fintype ι] (x r w : ι → ℝ) (s : ℝ) :
    ∑ k, (x k : EReal) * (((r k : EReal) * (w k : EReal)) * (s : EReal))
      = (∑ k, ((x k : EReal) * (r k : EReal)) * (w k : EReal)) * (s : EReal) := by
  have h1 : ∀ k, (x k : EReal) * (((r k : EReal) * (w k : EReal)) * (s : EReal))
      = ((x k * ((r k * w k) * s) : ℝ) : EReal) := fun k => by
    rw [EReal.coe_mul, EReal.coe_mul, EReal.coe_mul]
  have h2 : ∀ k, ((x k : EReal) * (r k : EReal)) * (w k : EReal) = (((x k * r k) * w k : ℝ) : EReal) := fun k => by
    rw [EReal.coe_mul, EReal.coe_mul]
  simp only [h1, h2]
  rw [← coe_sum, ← coe_sum, ← EReal.coe_mul, Finset.sum_mul]
  congr 1
  exact Finset.sum_congr rfl fun k _ => by ring

end Cert.Law
-- ==== Proof.Spec.lean ====
/-
  What the two programs compute, entry by entry, over the extended reals.

  The 524288 rows of `x` fall into four consecutive groups of 131072 rows; row `p` belongs to group
  `p / 131072`.  Group `e` has its own input scale `r e`, output scale `s e` and bias row `b e`; the weight
  matrix `w` is shared.  Entry `(p, q)` of the result is

      (∑ k, (x p k * r e k) * w k q) * s e q + b e q          (scale the input, contract, scale the column)

  which the kernel computes as

      (∑ k, x p k * ((r e k * w k q) * s e q)) + b e q        (contract with a weight that carries both scales).

  The two agree when the entries of `x`, `r`, `w` and `s` are real numbers: `s e q` does not depend on the
  contracted index and factors out of the sum (`Cert.Law.scale_out`).  The bias may be any extended real.
-/
import Idealize.ShloMosaic.PureOps.Ideal
import Idealize.ShloMosaic.Lib.ValueIdx
import proofs.«156073_j11544872091858_2_alg».proof.Proof.Law

noncomputable section

namespace Cert.Spec

open Idealize.ShloMosaic Idealize.ShloMosaic.ValueIdx

/-- The shapes of the five arguments: `x`, the two scales, the weight, the bias. -/
abbrev SX : Shape := ⟨2, ![524288, 128]⟩
abbrev SR : Shape := ⟨3, ![4, 128, 1]⟩
abbrev SW : Shape := ⟨2, ![128, 128]⟩
abbrev SB : Shape := ⟨2, ![4, 128]⟩

/-- The group a row belongs to: rows `131072 e … 131072 e + 131071` form group `e`. -/
def group (p : Fin 524288) : Fin 4 := ⟨p.val / 131072, by have := p.isLt; omega⟩

theorem group_val (p : Fin 524288) : (group p).val = p.val / 131072 := rfl

variable (x : SX.Idx → EReal) (r s : SR.Idx → EReal) (w : SW.Idx → EReal) (b : SB.Idx → EReal)

/-- Entry `(p, q)` as the kernel computes it: one contraction against the weight with both scales folded in. -/
def foldedEntry (p : Fin 524288) (q : Fin 128) : EReal :=
  (∑ k : Fin 128, x (ix2 p k) * ((r (ix3 (group p) k (0 : Fin 1)) * w (ix2 k q)) * s (ix3 (group p) q (0 : Fin 1))))
    + b (ix2 (group p) q)

/-- Entry `(p, q)` as the reference computes it: scale the input row, contract, scale the column, add the bias. -/
def scaledEntry (p : Fin 524288) (q : Fin 128) : EReal :=
  (∑ k : Fin 128, (x (ix2 p k) * r (ix3 (group p) k (0 : Fin 1))) * w (ix2 k q)) * s (ix3 (group p) q (0 : Fin 1))
    + b (ix2 (group p) q)

/-- The whole result array in the kernel's form. -/
def folded : SX.Idx → EReal := fun i => foldedEntry x r s w b (i 0) (i 1)

/-- The whole result array in the reference's form. -/
def scaled : SX.Idx → EReal := fun i => scaledEntry x r s w b (i 0) (i 1)

/-- On real entries the two forms are the same array. -/
theorem scaled_eq_folded (hx : ∀ i, ∃ a : ℝ, x i = (a : EReal)) (hr : ∀ i, ∃ a : ℝ, r i = (a : EReal))
    (hs : ∀ i, ∃ a : ℝ, s i = (a : EReal)) (hw : ∀ i, ∃ a : ℝ, w i = (a : EReal)) :
    scaled x r s w b = folded x r s w b := by
  choose x' hx' using hx
  choose r' hr' using hr
  choose s' hs' using hs
  choose w' hw' using hw
  funext i
  unfold scaled folded scaledEntry foldedEntry
  simp only [hx', hr', hs', hw']
  rw [Cert.Law.scale_out (fun k : Fin 128 => x' (ix2 (i 0) k)) (fun k : Fin 128 => r' (ix3 (group (i 0)) k (0 : Fin 1)))
    (fun k : Fin 128 => w' (ix2 k (i 1))) (s' (ix3 (group (i 0)) (i 1) (0 : Fin 1)))]

end Cert.Spec

end
-- ==== Proof.Blocks.lean ====
/-
  From what each grid point writes back to the whole result array of the idealized kernel.

  The grid has 4 × 8 points; point `(e, j)` works on block `T = 8 e + j` of 16384 rows of `x` and of the result,
  with group `e = T / 8`'s folded weight and bias row.  The body fills its output block by four stores of 4096
  rows each, every one the same function of the loaded rows, so the block it leaves is ONE function of the
  input blocks: entry `(a, q)` is `(∑ k, X a k * W 0 k q) + B 0 0 q`.  Row `a` of block `T` is row
  `16384 T + a` of the array, and `(16384 T + a) / 131072 = T / 8`, so that entry is the folded form of the
  specification at row `16384 T + a`.  The 32 blocks tile the 524288 rows (row `p` lies in block `p / 16384`),
  so the result array is the folded form everywhere.
-/
import proofs.«156073_j11544872091858_2_alg».proof.Proof.Gen.KernelIdeal.Value
import proofs.«156073_j11544872091858_2_alg».proof.Proof.Payload
import proofs.«156073_j11544872091858_2_alg».proof.Proof.HostPrefix
import proofs.«156073_j11544872091858_2_alg».proof.Proof.Spec
import Idealize.ShloMosaic.Lib.Pipeline.Value
import Idealize.ShloMosaic.Lib.Tactic

noncomputable section

namespace Cert.KernelBlocks

open Cert.KernelIdeal Cert.KernelIdeal.Gen Idealize.ShloMosaic Idealize.ShloMosaic.TcCoe Idealize.SL.Sem
open Idealize.ShloMosaic.ValueIdx Cert.KernelChunk Cert.KernelHost Cert.Spec
open Idealize.ShloMosaic.Pipeline (Dat)

/-! ## The block the body leaves is one function of its input blocks -/

theorem hz3 : (![0, 0, 0] : Fin 3 → Nat) = fun _ => 0 := funext fun a => by fin_cases a <;> rfl

/-- Entry `(a, q)` of the output block: row `a` of the rows block against column `q` of the weight block, plus entry
    `q` of the bias block. -/
def blockEntry (X : Vec Ideal S16384x128 .f32) (W : Vec Ideal S1x128x128 .bf16) (B : Vec Ideal S1x1x128 .f32)
    (a : Fin 16384) (q : Fin 128) : EReal :=
  (∑ k : Fin 128, X (ix2 a k) * W (ix3 (0 : Fin 1) k q)) + B (ix3 (0 : Fin 1) (0 : Fin 1) q)

/-- The output block as an array. -/
def blockFn (X : Vec Ideal S16384x128 .f32) (W : Vec Ideal S1x128x128 .bf16) (B : Vec Ideal S1x1x128 .f32) :
    Vec Ideal S16384x128 .f32 :=
  fun y => blockEntry X W B (y 0) (y 1)

/-- A store of a chunk's value through the 4096 rows from row `o` writes the block function's entries there: the
    chunk's row `a` is the block's row `o + a`. -/
theorem piece_eq (X : Vec Ideal S16384x128 .f32) (W : Vec Ideal S1x128x128 .bf16) (B : Vec Ideal S1x1x128 .f32) (o : Nat)
    (inb : ∀ a : Fin 2, (![o, 0] : Fin 2 → Nat) a + (![4096, 128] : Fin 2 → Nat) a ≤ S16384x128.size a) (x : S4096x128.Idx) :
    chunk (F := Ideal) W B (View.ld X (Rect.unit (s := S16384x128) ![o, 0] ![4096, 128] inb)) x
      = blockFn X W B ((Rect.unit (s := S16384x128) ![o, 0] ![4096, 128] inb).emb x) := by
  have ho : o + 4096 ≤ 16384 := inb 0
  obtain ⟨a, q, rfl⟩ : ∃ (a : Fin 4096) (q : Fin 128), x = ix2 a q := ⟨x 0, x 1, eq_ix2 x⟩
  have ha := a.isLt
  rw [chunk_apply]
  have hrow : ((Rect.unit (s := S16384x128) ![o, 0] ![4096, 128] inb).emb (ix2 a q)) 0 = (⟨o + a.val, by omega⟩ : Fin 16384) :=
    Fin.ext (by show o + 1 * a.val = o + a.val; omega)
  have hcol : ((Rect.unit (s := S16384x128) ![o, 0] ![4096, 128] inb).emb (ix2 a q)) 1 = q :=
    Fin.ext (by show 0 + 1 * q.val = q.val; omega)
  refine Eq.trans ?_ (congrArg₂ (blockEntry X W B) hrow hcol).symm
  unfold blockEntry
  refine congrArg (· + _) (Finset.sum_congr rfl fun k _ => congrArg (· * _) ?_)
  show X ((Rect.unit (s := S16384x128) ![o, 0] ![4096, 128] inb).idx (ix2 a k)) = X (ix2 ⟨o + a.val, by omega⟩ k)
  refine congrArg X (funext fun ax => Fin.ext ?_)
  match ax with
  | ⟨0, _⟩ => show o + 1 * a.val = o + a.val; omega
  | ⟨1, _⟩ => show 0 + 1 * k.val = k.val; omega

/-- What the body leaves in the output's staging buffer is the block function of its three input blocks: the four
    stores tile the block and each writes the block function's entries. -/
theorem out_eq (c : Dev nD) (i : grid0.Coords) (arg2 : Memref sig .tc .vmem S16384x128 .f32) (harg2 : arg2.IsWhole)
    (arg3 : Memref sig .tc .vmem S1x128x128 .bf16) (harg3 : arg3.IsWhole) (arg4 : Memref sig .tc .vmem S1x1x128 .f32) (harg4 : arg4.IsWhole)
    (arg5 : Memref sig .tc .vmem S16384x128 .f32) (harg5 : arg5.IsWhole)
    (X : Vec Ideal S16384x128 .f32) (W : Vec Ideal S1x128x128 .bf16) (B : Vec Ideal S1x1x128 .f32) :
    out0_A_3 (F := Ideal) c i arg2 harg2 arg3 harg3 arg4 harg4 arg5 harg5 X W B = blockFn X W B := by
  unfold out0_A_3
  rw [View.read_writes_eq_canon _ _ _ (cover0_A_3 c i arg2 harg2 arg3 harg3 arg4 harg4 arg5 harg5 X W B)]
  funext y
  refine View.canon_apply_of_pieces (blockFn X W B) _ ?_ y (cover0_A_3 c i arg2 harg2 arg3 harg3 arg4 harg4 arg5 harg5 X W B y)
  unfold kernelRun0_A
  dsimp only
  sl_unfold_words
  simp only [View.readAt_eq_ld, harg2.read_unread, harg3.read_unread, harg4.read_unread,
    View.ld_unit_zero (S := S1x128x128) hz3, View.ld_unit_zero (S := S1x1x128) hz3, pay1_eq, pay4_eq, pay5_eq, pay6_eq]
  intro p hp
  simp only [List.mem_cons, List.not_mem_nil, or_false] at hp
  rcases hp with rfl | rfl | rfl | rfl <;> exact fun x => piece_eq X W B _ _ x

/-! ## The block at a grid point is the folded form of the specification -/

/-- The block function of blocks that read `x` at rows `16384 T + a`, the folded weight of group `T / 8` and that
    group's bias row is the folded form of the specification at row `16384 T + a` — for any three blocks with
    these entries; the blocks a grid point stages are such. -/
theorem block_is_folded (x : SX.Idx → EReal) (r s : SR.Idx → EReal) (w : SW.Idx → EReal) (b : SB.Idx → EReal)
    (X : Vec Ideal S16384x128 .f32) (W : Vec Ideal S1x128x128 .bf16) (B : Vec Ideal S1x1x128 .f32) (T : Nat) (hT : T < 32)
    (hX : ∀ (a : Fin 16384) (k : Fin 128), X (ix2 a k) = x (ix2 (⟨T * 16384 + a.val, by have := a.isLt; omega⟩ : Fin 524288) k))
    (hW : ∀ k q : Fin 128, W (ix3 (0 : Fin 1) k q)
      = (r (ix3 (⟨T / 8, by omega⟩ : Fin 4) k (0 : Fin 1)) * w (ix2 k q)) * s (ix3 (⟨T / 8, by omega⟩ : Fin 4) q (0 : Fin 1)))
    (hB : ∀ q : Fin 128, B (ix3 (0 : Fin 1) (0 : Fin 1) q) = b (ix2 (⟨T / 8, by omega⟩ : Fin 4) q))
    (a : Fin 16384) (q : Fin 128) :
    blockEntry X W B a q = foldedEntry x r s w b (⟨T * 16384 + a.val, by have := a.isLt; omega⟩ : Fin 524288) q := by
  have ha := a.isLt
  have hg : group (⟨T * 16384 + a.val, by omega⟩ : Fin 524288) = (⟨T / 8, by omega⟩ : Fin 4) :=
    Fin.ext (by show (T * 16384 + a.val) / 131072 = T / 8; omega)
  unfold blockEntry foldedEntry
  rw [hg, hB]
  refine congrArg (· + _) (Finset.sum_congr rfl fun k _ => ?_)
  rw [hX, hW]

variable (m : (ℓ : Loc nD τ sig) → Buf (Elt Ideal) ℓ) (ρ : Dev nD → PrngReg)

/-- The five launch arguments on core `c`, as arrays of extended reals. -/
abbrev argX (c : Dev nD) : SX.Idx → EReal := m ((c : Thread nD τ).loc main_arg0)
abbrev argR (c : Dev nD) : SR.Idx → EReal := m ((c : Thread nD τ).loc main_arg1)
abbrev argS (c : Dev nD) : SR.Idx → EReal := m ((c : Thread nD τ).loc main_arg2)
abbrev argW (c : Dev nD) : SW.Idx → EReal := m ((c : Thread nD τ).loc main_arg3)
abbrev argB (c : Dev nD) : SB.Idx → EReal := m ((c : Thread nD τ).loc main_arg4)

/-- The printed index maps, decided over the 32 grid points: the rows window moves with the output window, the
    weight and bias windows sit on group `T / 8`, and the output's block index `T` runs below 32 on axis 0 and is 0
    on axis 1. -/
theorem idx_facts : ∀ t : Fin cfg0.N,
    win0_0.index t (0 : Fin 2) = win0_3.index t (0 : Fin 2) ∧ win0_0.index t (1 : Fin 2) = 0
    ∧ win0_1.index t (0 : Fin 3) = win0_3.index t (0 : Fin 2) / 8 ∧ win0_1.index t (1 : Fin 3) = 0 ∧ win0_1.index t (2 : Fin 3) = 0
    ∧ win0_2.index t (0 : Fin 3) = win0_3.index t (0 : Fin 2) / 8 ∧ win0_2.index t (1 : Fin 3) = 0 ∧ win0_2.index t (2 : Fin 3) = 0
    ∧ win0_3.index t (0 : Fin 2) < 32 ∧ win0_3.index t (1 : Fin 2) = 0 :=
  (by decide +kernel : ∀ t : Fin grid0.N, _)

/-- Every block of 16384 rows is some grid point's. -/
theorem idx_onto : ∀ T : Fin 32, ∃ t : Fin cfg0.N, win0_3.index t = ![T.val, 0] :=
  (by decide +kernel : ∀ T : Fin 32, ∃ t : Fin grid0.N, win0_3.index t = ![T.val, 0])

/-- The rows block at a point reads `x` where the block's rectangle says. -/
theorem rows_block_read (c : Dev nD) (t : Fin cfg0.N) (a : Fin 16384) (k : Fin 128) (i : S524288x128.Idx)
    (h0 : win0_0.index t (0 : Fin 2) * 16384 + a.val = (i 0).val) (h1 : win0_0.index t (1 : Fin 2) * 128 + k.val = (i 1).val) :
    (iblk m c 0 t : Vec Ideal S16384x128 .f32) (ix2 a k) = argX m c i :=
  (show V m c main_arg0 (((cfg0.win 0).blk t).view.emb (ix2 a k)) = V m c main_arg0 i from
    congrArg (V m c main_arg0) (funext fun ax => Fin.ext (by
      match ax with
      | ⟨0, _⟩ => show win0_0.index t (0 : Fin 2) * 16384 + 1 * a.val = (i 0).val; omega
      | ⟨1, _⟩ => show win0_0.index t (1 : Fin 2) * 128 + 1 * k.val = (i 1).val; omega))).trans
  (congrFun (V_main_arg0 m c) i)

/-- The weight block at a point reads the folded weight of the point's group. -/
theorem weight_block_read (c : Dev nD) (t : Fin cfg0.N) (k q : Fin 128) (e : Fin 4)
    (h0 : win0_1.index t (0 : Fin 3) = e.val) (h1 : win0_1.index t (1 : Fin 3) = 0) (h2 : win0_1.index t (2 : Fin 3) = 0) :
    (iblk m c 1 t : Vec Ideal S1x128x128 .bf16) (ix3 (0 : Fin 1) k q)
      = (argR m c (ix3 e k (0 : Fin 1)) * argW m c (ix2 k q)) * argS m c (ix3 e q (0 : Fin 1)) :=
  ((show V m c main_v10 (((cfg0.win 1).blk t).view.emb (ix3 (0 : Fin 1) k q)) = V m c main_v10 (ix3 e k q) from
    congrArg (V m c main_v10) (funext fun ax => Fin.ext (by
      match ax with
      | ⟨0, _⟩ => show win0_1.index t (0 : Fin 3) * 1 + 1 * 0 = e.val; omega
      | ⟨1, _⟩ => show win0_1.index t (1 : Fin 3) * 128 + 1 * k.val = k.val; omega
      | ⟨2, _⟩ => show win0_1.index t (2 : Fin 3) * 128 + 1 * q.val = q.val; omega))).trans
  (congrFun (weight_found m c) (ix3 e k q))).trans (foldedWeight_apply _ _ _ e k q)

/-- The bias block at a point reads the bias row of the point's group. -/
theorem bias_block_read (c : Dev nD) (t : Fin cfg0.N) (q : Fin 128) (e : Fin 4)
    (h0 : win0_2.index t (0 : Fin 3) = e.val) (h1 : win0_2.index t (1 : Fin 3) = 0) (h2 : win0_2.index t (2 : Fin 3) = 0) :
    (iblk m c 2 t : Vec Ideal S1x1x128 .f32) (ix3 (0 : Fin 1) (0 : Fin 1) q) = argB m c (ix2 e q) :=
  ((show V m c main_v11 (((cfg0.win 2).blk t).view.emb (ix3 (0 : Fin 1) (0 : Fin 1) q)) = V m c main_v11 (ix3 e (0 : Fin 1) q) from
    congrArg (V m c main_v11) (funext fun ax => Fin.ext (by
      match ax with
      | ⟨0, _⟩ => show win0_2.index t (0 : Fin 3) * 1 + 1 * 0 = e.val; omega
      | ⟨1, _⟩ => show win0_2.index t (1 : Fin 3) * 1 + 1 * 0 = 0; omega
      | ⟨2, _⟩ => show win0_2.index t (2 : Fin 3) * 128 + 1 * q.val = q.val; omega))).trans
  (congrFun (bias_found m c) (ix3 e (0 : Fin 1) q))).trans (biasRows_apply _ e q)

/-! ## The result array -/

/-- The result array of the idealized kernel: the folded form of the launch arguments. -/
abbrev result (c : Dev nD) : Buf (Elt Ideal) ((c : Thread nD τ).loc main_v12) :=
  folded (argX m c) (argR m c) (argS m c) (argW m c) (argB m c)

/-- What point `t` writes back is block `t` of the result array. -/
theorem flushed_eq (c : Dev nD) (t : Fin cfg0.N) :
    (dats m 0 c).flushed 3 t = ((cfg0.win 3).blk t).view.read (Elt Ideal) (result m c) := by
  rw [Cert.KernelIdeal.Value.flushed3_A, out_eq]
  obtain ⟨e00, e01, e10, e11, e12, e20, e21, e22, hT, e31⟩ := idx_facts t
  funext j
  have hj0 : (j 0).val < 16384 := (j 0).isLt
  have hj1 : (j 1).val < 128 := (j 1).isLt
  show blockEntry (iblk m c 0 t) (iblk m c 1 t) (iblk m c 2 t) ⟨(j 0).val, hj0⟩ ⟨(j 1).val, hj1⟩
    = foldedEntry (argX m c) (argR m c) (argS m c) (argW m c) (argB m c)
        ((((cfg0.win 3).blk t).view.emb j) 0) ((((cfg0.win 3).blk t).view.emb j) 1)
  refine (block_is_folded (argX m c) (argR m c) (argS m c) (argW m c) (argB m c) (iblk m c 0 t) (iblk m c 1 t) (iblk m c 2 t) (win0_3.index t (0 : Fin 2)) hT
    (fun a k => rows_block_read m c t a k _ (by show _ = win0_3.index t (0 : Fin 2) * 16384 + a.val; omega) (by show _ = k.val; omega))
    (fun k q => weight_block_read m c t k q ⟨win0_3.index t (0 : Fin 2) / 8, by omega⟩ e10 e11 e12)
    (fun q => bias_block_read m c t q ⟨win0_3.index t (0 : Fin 2) / 8, by omega⟩ e20 e21 e22)
    ⟨(j 0).val, hj0⟩ ⟨(j 1).val, hj1⟩).trans ?_
  exact congrArg₂ (foldedEntry (argX m c) (argR m c) (argS m c) (argW m c) (argB m c))
    (Fin.ext (by show win0_3.index t (0 : Fin 2) * 16384 + (j 0).val = win0_3.index t (0 : Fin 2) * 16384 + 1 * (j 0).val; omega))
    (Fin.ext (by show (j 1).val = win0_3.index t (1 : Fin 2) * 128 + 1 * (j 1).val; omega))

/-- An index of the array is in point `t`'s block iff each coordinate is in the block's range on its axis. -/
theorem mem_blk (t : Fin cfg0.N) (i : S524288x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_v12).slice (win0_3.rect t)).set ↔ _
  rw [View.set_slice_whole, Rect.mem_set_unit]
  exact Iff.rfl

/-- Every index of the array is in some point's block: row `p` is in block `p / 16384`. -/
theorem cover (i : S524288x128.Idx) : ∃ t : Fin cfg0.N, (cfg0.win 3).flush t = true ∧ i ∈ ((cfg0.win 3).blk t).view.set := by
  have hi0 : (i 0).val < 524288 := (i 0).isLt
  have hi1 : (i 1).val < 128 := (i 1).isLt
  obtain ⟨t, ht⟩ := idx_onto ⟨(i 0).val / 16384, by omega⟩
  have q0 : win0_3.index t (0 : Fin 2) = (i 0).val / 16384 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 16384 ≤ (i 0).val ∧ (i 0).val < win0_3.index t (0 : Fin 2) * 16384 + 16384
    omega
  | ⟨1, _⟩ =>
    show win0_3.index t (1 : Fin 2) * 128 ≤ (i 1).val ∧ (i 1).val < win0_3.index t (1 : Fin 2) * 128 + 128
    omega

/-- The array after the run is the folded form of the launch arguments. -/
theorem final (c : Dev nD) : (dats m 0 c).arrAt 3 cfg0.N = result m c :=
  (dats m 0 c).arrAt_eq_of_cover 3 (result m c) (fun t _ => flushed_eq m c t) cover

/-- The idealized kernel's run: the result array ends at the folded form of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelBlocks

end
-- ==== Proof.RefIsScaled.lean ====
/-
  The reference, read entry by entry, is the scaled form of the specification.

  The reference views `x` as four groups of 131072 rows, multiplies row `(e, j)` by the group's input scale,
  contracts with the weight, multiplies by the group's output scale, adds the group's bias row and views the
  result as 524288 rows again.  Row `p` of the result is row `(p / 131072, p % 131072)` of the grouped array, and
  `131072 (p / 131072) + p % 131072 = p`, so entry `(p, q)` reads `x` at row `p` and the scales and bias of
  group `p / 131072`.
-/
import proofs.«156073_j11544872091858_2_alg».proof.Proof.Gen.ReferenceIdeal.Read
import proofs.«156073_j11544872091858_2_alg».proof.Proof.Spec

noncomputable section

namespace Cert.RefIsScaled

open Cert.ReferenceIdeal Cert.ReferenceIdeal.Read Idealize.ShloMosaic Idealize.ShloMosaic.ValueIdx Cert.Spec

/-! ## Where each operand is read for entry `(p, q)` and contracted index `k` -/

/-- `x` is read at row `p`, column `k`: row `p` regrouped and flattened again is row `p`. -/
theorem x_at (p : Fin 524288) (q k : Fin 128) :
    idx_main_v0 (lidx_main_v4 (idx_main_v11 (ix2 p q)) k) = ix2 p k := by
  have hp := p.isLt; have hq := q.isLt; have hk := k.isLt
  funext a; apply Fin.ext
  match a with
  | ⟨0, _⟩ =>
    show (((p.val * 128 + q.val) / 16777216 * 131072 + (p.val * 128 + q.val) / 128 % 131072) * 128 + k.val) / 128 = p.val
    omega
  | ⟨1, _⟩ =>
    show (((p.val * 128 + q.val) / 16777216 * 131072 + (p.val * 128 + q.val) / 128 % 131072) * 128 + k.val) % 128 = k.val
    omega

/-- The input scale is read at the row's group and the contracted index. -/
theorem r_at (p : Fin 524288) (q k : Fin 128) :
    idx_main_v1 (idx_main_v2 (lidx_main_v4 (idx_main_v11 (ix2 p q)) k)) = ix3 (group p) k (0 : Fin 1) := by
  have hp := p.isLt; have hq := q.isLt
  funext a; apply Fin.ext
  match a with
  | ⟨0, _⟩ => show (p.val * 128 + q.val) / 16777216 = p.val / 131072; omega
  | ⟨1, _⟩ => rfl
  | ⟨2, _⟩ => rfl

/-- The weight is read at the contracted index and the column. -/
theorem w_at (p : Fin 524288) (q k : Fin 128) :
    ridx_main_v4 (idx_main_v11 (ix2 p q)) k = ix2 k q := by
  have hp := p.isLt; have hq := q.isLt
  funext a; apply Fin.ext
  match a with
  | ⟨0, _⟩ => rfl
  | ⟨1, _⟩ => show (p.val * 128 + q.val) % 128 = q.val; omega

/-- The output scale is read at the row's group and the column. -/
theorem s_at (p : Fin 524288) (q : Fin 128) :
    idx_main_v5 (idx_main_v6 (idx_main_v11 (ix2 p q))) = ix3 (group p) q (0 : Fin 1) := by
  have hp := p.isLt; have hq := q.isLt
  funext a; apply Fin.ext
  match a with
  | ⟨0, _⟩ => show (p.val * 128 + q.val) / 16777216 = p.val / 131072; omega
  | ⟨1, _⟩ => show (p.val * 128 + q.val) % 128 = q.val; omega
  | ⟨2, _⟩ => rfl

/-- The bias is read at the row's group and the column. -/
theorem b_at (p : Fin 524288) (q : Fin 128) :
    idx_main_v8 (idx_main_v9 (idx_main_v11 (ix2 p q))) = ix2 (group p) q := by
  have hp := p.isLt; have hq := q.isLt
  funext a; apply Fin.ext
  match a with
  | ⟨0, _⟩ => show (p.val * 128 + q.val) / 16777216 = p.val / 131072; omega
  | ⟨1, _⟩ => show (p.val * 128 + q.val) % 128 = q.val; omega

/-! ## The reference's result -/

/-- The reference's last stage is the scaled form of the specification, as arrays over the extended reals. -/
theorem reference_eq (x0 : (⟨S524288x128, .f32⟩ : BufTy).Contents (Elt Ideal)) (x1 x2 : (⟨S4x128x1, .f32⟩ : BufTy).Contents (Elt Ideal))
    (x3 : (⟨S128x128, .f32⟩ : BufTy).Contents (Elt Ideal)) (x4 : (⟨S4x128, .f32⟩ : BufTy).Contents (Elt Ideal)) :
    val_main_v11 (F := Ideal) x0 x1 x2 x3 x4 = scaled x0 x1 x2 x3 x4 := by
  funext i
  obtain ⟨p, q, rfl⟩ : ∃ (p : Fin 524288) (q : Fin 128), i = ix2 p q := ⟨i 0, i 1, eq_ix2 i⟩
  show _ = scaledEntry x0 x1 x2 x3 x4 p q
  rw [val_main_v11_apply, val_main_v10_apply, val_main_v7_apply, val_main_v9_apply, val_main_v8_apply,
    val_main_v6_apply, val_main_v5_apply, val_main_v4_apply]
  simp only [val_main_v3_apply, val_main_v0_apply, val_main_v2_apply, val_main_v1_apply,
    x_at, r_at, w_at, s_at, b_at]
  rfl

end Cert.RefIsScaled

end
-- ==== Proof.Finite.lean ====
/-
  The precondition, read back: every entry of every argument is a real number.

  The precondition is the conjunction, over the five arguments, of "every entry has absolute value below +∞".
  Over the extended reals `|y| = max y (-y)`, and `max y (-y) < ⊤` excludes both infinities, so `y` is the
  coercion of a real.
-/
import proofs.«156073_j11544872091858_2_alg».proof.Pre_finite_inputs
import proofs.«156073_j11544872091858_2_alg».proof.Proof.Gen.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Finite

open Cert.Pre_finite_inputs Cert.Pre_finite_inputs.Gen Idealize.ShloMosaic Idealize.ShloMosaic.ValueIdx

instance : Subsingleton S_.Idx := ⟨fun a b => funext fun d => d.elim0⟩

/-- The pattern of +∞ denotes the top of the extended reals. -/
theorem inf_pattern : Ideal.ofBits .f32 0x7F800000#32 = (⊤ : EReal) := by
  simp [Ideal.ofBits, Ideal.ieee]

/-- An extended real whose absolute value compares below +∞ is a real number. -/
theorem real_of_abs_lt_inf (y : EReal)
    (h : Ideal.cmp .olt (max y (-y)) (Ideal.ofBits .f32 0x7F800000#32) = 1#1) : ∃ a : ℝ, y = (a : EReal) := by
  rw [inf_pattern] at h
  have hlt : max y (-y) < ⊤ := by
    by_contra hn
    simp [Ideal.cmp, hn] at h
  induction y using EReal.rec with
  | bot => simp at hlt
  | top => simp at hlt
  | coe a => exact ⟨a, rfl⟩

/-- One argument's conjunct: if the and-reduction of "|x| < +∞" over all entries is true, every entry is real. -/
theorem real_of_all {S : Shape} {axes : List (Fin S.rank)} (x : FVec Ideal S .f32)
    (bc : S_.BroadcastsInDim S (![] : Fin 0 → Fin S.rank)) (red : S.ReducesTo axes S_) (hu : 0 < S_.numel)
    (h : Host.reduce IntOp.andi (cmpf .olt (Host.absf x) (broadcastInDim S ![] bc (constant (F := Ideal) S_ .f32 0x7F800000#32)))
        (constantI S_ 1 1#1) red hu ix0 = 1#1) (i : S.Idx) : ∃ a : ℝ, x i = (a : EReal) := by
  have hi := Host.reduce_andi_all _ _ red hu ix0 h i
  refine real_of_abs_lt_inf (x i) ?_
  rw [cmpf_apply, broadcastInDim_apply _ bc _ i ix0 (fun a => a.elim0)] at hi
  exact hi

/-- The precondition gives: every entry of `x`, of both scales, of the weight and of the bias is a real number. -/
theorem real_of_pre (x0 : FVec Ideal S524288x128 .f32) (x1 x2 : FVec Ideal S4x128x1 .f32) (x3 : FVec Ideal S128x128 .f32)
    (x4 : FVec Ideal S4x128 .f32) (h : fn (F := Ideal) x0 x1 x2 x3 x4 = fun _ => 1#1) :
    (∀ i, ∃ a : ℝ, x0 i = (a : EReal)) ∧ (∀ i, ∃ a : ℝ, x1 i = (a : EReal)) ∧ (∀ i, ∃ a : ℝ, x2 i = (a : EReal))
      ∧ (∀ i, ∃ a : ℝ, x3 i = (a : EReal)) ∧ (∀ i, ∃ a : ℝ, x4 i = (a : EReal)) := by
  have h0 := congrFun h ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all x0 _ _ _ h0', real_of_all x1 _ _ _ h1, real_of_all x2 _ _ _ h2, real_of_all x3 _ _ _ h3,
    real_of_all x4 _ _ _ h4⟩

end Cert.Finite

end
-- ==== Proof.lean ====
/-
  An ensemble linear layer: four groups of 131072 rows of `x` share one 128 × 128 weight `w`; group `e` scales its
  input columns by `r e`, its output columns by `s e`, and adds its bias row `b e`.

  The reference computes entry `(p, q)`, for row `p` in group `e = p / 131072`, as
  `(∑ k, (x p k * r e k) * w k q) * s e q + b e q`.  The kernel first folds both scales into a per-group weight
  `(r e k * w k q) * s e q` on the host and then, on a 4 × 8 grid of 16384-row blocks cut into four 4096-row
  chunks, computes `(∑ k, x p k * ((r e k * w k q) * s e q)) + b e q` (its roundings to bf16 are the identity over
  the extended reals).

  The claim holds because `s e q` does not depend on the contracted index and so factors out of the sum — a law
  of the reals that fails at the infinities, which is where the precondition (every input entry finite) is used.
  The modules: `Law` (the law), `Spec` (both forms of an entry and their agreement on real entries),
  `RefIsScaled` (the reference is the scaled form), `HostPrefix` (the folded weight and bias the region finds),
  `Payload` (one chunk at an index), `Blocks` (from the chunks to the block, from the blocks to the array),
  `Finite` (the precondition read back).  The idealization rewrote nothing, so `preserves` is trivial; the three
  frames are the generated ones.
-/
import proofs.«156073_j11544872091858_2_alg».proof.Defs
import proofs.«156073_j11544872091858_2_alg».proof.Proof.Gen.Kernel
import proofs.«156073_j11544872091858_2_alg».proof.Proof.Gen.Kernel.Skeleton
import proofs.«156073_j11544872091858_2_alg».proof.Proof.Gen.Kernel.Launch
import proofs.«156073_j11544872091858_2_alg».proof.Proof.Gen.Kernel.Points
import proofs.«156073_j11544872091858_2_alg».proof.Proof.Gen.Kernel.Frame
import proofs.«156073_j11544872091858_2_alg».proof.Proof.Gen.KernelIdeal
import proofs.«156073_j11544872091858_2_alg».proof.Proof.Gen.KernelIdeal.Skeleton
import proofs.«156073_j11544872091858_2_alg».proof.Proof.Gen.KernelIdeal.Launch
import proofs.«156073_j11544872091858_2_alg».proof.Proof.Gen.KernelIdeal.Points
import proofs.«156073_j11544872091858_2_alg».proof.Proof.Gen.KernelIdeal.Frame
import proofs.«156073_j11544872091858_2_alg».proof.Proof.Gen.ReferenceIdeal
import proofs.«156073_j11544872091858_2_alg».proof.Proof.Gen.KernelIdeal.Value
import proofs.«156073_j11544872091858_2_alg».proof.Proof.Gen.ReferenceIdeal.Run
import proofs.«156073_j11544872091858_2_alg».proof.Proof.Gen.ReferenceIdeal.Read
import proofs.«156073_j11544872091858_2_alg».proof.Proof.Gen.Pre_finite_inputs
import proofs.«156073_j11544872091858_2_alg».proof.Proof.Blocks
import proofs.«156073_j11544872091858_2_alg».proof.Proof.RefIsScaled
import proofs.«156073_j11544872091858_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from finite arguments on which the two memories agree, the idealized kernel ends at
    the folded form of the arguments and the reference at the scaled form: one array, since on real entries the
    output scale factors out of the contraction. -/
theorem algebraic : Cert.algebraic_KernelIdeal_ReferenceIdeal := by
  intro m ρ m' ρ' hpre hagree
  refine ⟨fun c => Cert.KernelBlocks.result m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨h0, h1, h2, h3, -⟩ := Cert.Finite.real_of_pre _ _ _ _ _ (hpre c)
  exact (Cert.ReferenceIdeal.Read.val_main_v11_eq _ _ _ _ _).trans
    ((Cert.RefIsScaled.reference_eq _ _ _ _ _).trans (Cert.Spec.scaled_eq_folded _ _ _ _ _ h0 h1 h2 h3))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
